-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S11008x4096 : Shape := ⟨2, ![11008, 4096]⟩
abbrev S11008 : Shape := ⟨1, ![11008]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S32x4096 .f32) (main_arg1 : FVec F S11008x4096 .f32) (main_arg2 : FVec F S11008 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S32x4096 : Shape := ⟨2, ![32, 4096]⟩
abbrev S11008x4096 : Shape := ⟨2, ![11008, 4096]⟩
abbrev S11008 : Shape := ⟨1, ![11008]⟩
abbrev S1x11008 : Shape := ⟨2, ![1, 11008]⟩
abbrev S32x11008 : Shape := ⟨2, ![32, 11008]⟩
abbrev S512x4096 : Shape := ⟨2, ![512, 4096]⟩
abbrev S1x512 : Shape := ⟨2, ![1, 512]⟩
abbrev S32x512 : Shape := ⟨2, ![32, 512]⟩

abbrev nBuf : Space → Nat
  | .hbm => 6
  | .vmem => 7
  | .smem => 0
  | _ => 0

abbrev bufTy : (tb : Table) → Fin (tcTables nBuf tb) → BufTy
  | .hbm, ⟨0, _⟩ => ⟨S32x4096, .f32⟩
  | .hbm, ⟨1, _⟩ => ⟨S11008x4096, .f32⟩
  | .hbm, ⟨2, _⟩ => ⟨S11008, .f32⟩
  | .hbm, ⟨3, _⟩ => ⟨S1x11008, .f32⟩
  | .hbm, ⟨4, _⟩ => ⟨S32x4096, .bf16⟩
  | .hbm, ⟨5, _⟩ => ⟨S32x11008, .f32⟩
  | .local _ .vmem, ⟨0, _⟩ => ⟨S32x4096, .bf16⟩
  | .local _ .vmem, ⟨1, _⟩ => ⟨S512x4096, .f32⟩
  | .local _ .vmem, ⟨2, _⟩ => ⟨S512x4096, .f32⟩
  | .local _ .vmem, ⟨3, _⟩ => ⟨S1x512, .f32⟩
  | .local _ .vmem, ⟨4, _⟩ => ⟨S1x512, .f32⟩
  | .local _ .vmem, ⟨5, _⟩ => ⟨S32x512, .f32⟩
  | .local _ .vmem, ⟨6, _⟩ => ⟨S32x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S11008_S1x11008 : S11008.ShapeCasts S1x11008
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  inb_S32x512_S32x512_0_0 : ∀ a, (![0, 0] : Fin 2 → Nat) a + S32x512.size a ≤ S32x512.size a
  h_S32x512 : 0 < S32x512.numel
  dot_S32x4096_S512x4096_S32x512_1_1_0_0_n_n_wf : DotDims.WF S32x4096 S512x4096 S32x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .bf16 = 32 ∨ (Rect.block (s := S32x4096) S32x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x4096.size a < S11008x4096.size a
  hwx0_1 : ∀ i : grid0.Coords, EltTy.bits .f32 = 32 ∨ (Rect.unit (s := S11008x4096) (fun a => cc0_transform_1 i a * S512x4096.size a) (fun a => (Pipeline.Clip.of (cc0_transform_1 i a) (S512x4096.size a) (S11008x4096.size a)).extent (S512x4096.size a)) fun a => Pipeline.Clip.inb (Pipeline.Clip.ok_of (hstart0_1 i a))).WholeWords (EltTy.packing .f32)
  hwxs0_1 : ∀ i : grid0.Coords, EltTy.bits .f32 = 32 ∨ (Rect.unit (s := S512x4096) (fun _ => 0) (fun a => (Pipeline.Clip.of (cc0_transform_1 i a) (S512x4096.size a) (S11008x4096.size a)).extent (S512x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512.size a < S1x11008.size a
  hwx0_2 : ∀ i : grid0.Coords, EltTy.bits .f32 = 32 ∨ (Rect.unit (s := S1x11008) (fun a => cc0_transform_2 i a * S1x512.size a) (fun a => (Pipeline.Clip.of (cc0_transform_2 i a) (S1x512.size a) (S1x11008.size a)).extent (S1x512.size a)) fun a => Pipeline.Clip.inb (Pipeline.Clip.ok_of (hstart0_2 i a))).WholeWords (EltTy.packing .f32)
  hwxs0_2 : ∀ i : grid0.Coords, EltTy.bits .f32 = 32 ∨ (Rect.unit (s := S1x512) (fun _ => 0) (fun a => (Pipeline.Clip.of (cc0_transform_2 i a) (S1x512.size a) (S1x11008.size a)).extent (S1x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x512.size a < S32x11008.size a
  hwx0_3 : ∀ i : grid0.Coords, EltTy.bits .f32 = 32 ∨ (Rect.unit (s := S32x11008) (fun a => cc0_transform_3 i a * S32x512.size a) (fun a => (Pipeline.Clip.of (cc0_transform_3 i a) (S32x512.size a) (S32x11008.size a)).extent (S32x512.size a)) fun a => Pipeline.Clip.inb (Pipeline.Clip.ok_of (hstart0_3 i a))).WholeWords (EltTy.packing .f32)
  hwxs0_3 : ∀ i : grid0.Coords, EltTy.bits .f32 = 32 ∨ (Rect.unit (s := S32x512) (fun _ => 0) (fun a => (Pipeline.Clip.of (cc0_transform_3 i a) (S32x512.size a) (S32x11008.size a)).extent (S32x512.size a)) fun a => (Nat.zero_add _).trans_le (Pipeline.Clip.extent_le (Pipeline.Clip.ok_of (hstart0_3 i a)))).WholeWords (EltTy.packing .f32)

variable [Facts₀]

def dot_S32x4096_S512x4096_S32x512_1_1_0_0_n_n : DotDims S32x4096 S512x4096 S32x512 where
  lhsContracting := [1]
  rhsContracting := [1]
  lhsNonContracting := [0]
  rhsNonContracting := [0]
  lhsBatch := []
  rhsBatch := []
  wf := dot_S32x4096_S512x4096_S32x512_1_1_0_0_n_n_wf

abbrev win0_0 : Pipeline.Window sig grid0 :=
  Pipeline.Window.ofSpec (Memref.whole main_v1) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S32x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S11008x4096 : Shape := ⟨2, ![11008, 4096]⟩
abbrev S11008 : Shape := ⟨1, ![11008]⟩
abbrev S4096x11008 : Shape := ⟨2, ![4096, 11008]⟩
abbrev S32x11008 : Shape := ⟨2, ![32, 11008]⟩
abbrev S1x11008 : Shape := ⟨2, ![1, 11008]⟩

abbrev nBuf : Space → Nat
  | .hbm => 8
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S11008x4096, .f32⟩
  | .hbm, ⟨2, _⟩ => ⟨S11008, .f32⟩
  | .hbm, ⟨3, _⟩ => ⟨S4096x11008, .f32⟩
  | .hbm, ⟨4, _⟩ => ⟨S32x11008, .f32⟩
  | .hbm, ⟨5, _⟩ => ⟨S1x11008, .f32⟩
  | .hbm, ⟨6, _⟩ => ⟨S32x11008, .f32⟩
  | .hbm, ⟨7, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S11008x4096_S4096x11008_1_0 : S11008x4096.Transposes [1, 0] S4096x11008
  bcast_S11008_S1x11008_1 : S11008.BroadcastsInDim S1x11008 (![1] : Fin 1 → Fin S1x11008.rank)
  bcast_S1x11008_S32x11008_0_1 : S1x11008.BroadcastsInDim S32x11008 (![0, 1] : Fin 2 → Fin S32x11008.rank)
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.KernelBody.lean ====
/-
  The kernel body of `Kernel` on any four whole staging buffers.

  One grid point computes a 32 × 512 tile of the result: the whole activation block (32 × 4096), one block of 512
  weight rows (512 × 4096) and the matching 512 bias entries are loaded whole, the tile
  `x · wᵀ + bias` is formed, and it is stored whole into the result's staging buffer (after a dead load of that
  buffer). So the three input buffers are left as found and the result's buffer ends holding `tile x w b`,
  the one store's payload over the three loaded values.
-/
import proofs.«116691_j51299089383831_2_alg».proof.Proof.Gen.Kernel.Frame
import proofs.«116691_j51299089383831_2_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The four whole-buffer accesses -/

abbrev rectX : Rect S32x4096 := Rect.unit (s := S32x4096) ![0, 0] S32x4096.size inb_S32x4096_S32x4096_0_0
abbrev rectW : Rect S512x4096 := Rect.unit (s := S512x4096) ![0, 0] S512x4096.size inb_S512x4096_S512x4096_0_0
abbrev rectB : Rect S1x512 := Rect.unit (s := S1x512) ![0, 0] S1x512.size inb_S1x512_S1x512_0_0
abbrev rectO : Rect S32x512 := Rect.unit (s := S32x512) ![0, 0] S32x512.size inb_S32x512_S32x512_0_0

/-- The result tile one grid point leaves in the result's staging buffer, from what the three input buffers hold:
    the single whole store of `x · wᵀ + bias` (the skeleton's payload) read back as the buffer's contents. -/
def tile (x : Vec F S32x4096 .bf16) (w : Vec F S512x4096 .f32) (b : Vec F S1x512 .f32) : Vec F S32x512 .f32 :=
  View.canon [⟨rectO, k0_pay1 (View.ld x rectX) (View.ld w rectW) (View.ld b rectB)⟩]

/-- The one store covers the result's staging buffer. -/
theorem tile_cover (p : Vec F S32x512 .f32) (y : S32x512.Idx) :
    ∃ pc ∈ ([⟨rectO, p⟩] : List (View.Piece (Elt F) S32x512 .f32)), y ∈ pc.1.set :=
  View.cover_of_tiled [⟨rectO, p⟩] S32x512.size (by rfl) y

set_option maxHeartbeats 1000000 in
/-- The body's triple: on whole staging buffers holding `x`, `w`, `b` and anything, the body runs to the same
    three and the result's buffer at `tile x w b`. -/
theorem sound_kernel (c : Dev nD) (E : Set ℕ) (i : grid0.Coords)
    (arg1 : Memref sig .tc .vmem S32x4096 .bf16) (harg1 : arg1.IsWhole)
    (arg2 : Memref sig .tc .vmem S512x4096 .f32) (harg2 : arg2.IsWhole)
    (arg3 : Memref sig .tc .vmem S1x512 .f32) (harg3 : arg3.IsWhole)
    (arg4 : Memref sig .tc .vmem S32x512 .f32) (harg4 : arg4.IsWhole)
    (x : Vec F S32x4096 .bf16) (w : Vec F S512x4096 .f32) (b : Vec F S1x512 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (tile x w b)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

end Cert.Kernel.Hand

end
-- ==== Proof.KernelFrame.lean ====
/-
  The frame of `Kernel`: it runs to the end, faults nowhere, and leaves its three argument arrays unchanged.

  The grid has 22 points; point `t` stages the whole activation block, weight rows `512 t ‥ 512 t + 511` and the
  matching bias entries, and writes back result columns `512 t ‥ 512 t + 511`. 11008 = 21 · 512 + 256, so the last
  point's weight, bias and result blocks overhang their arrays by 256: the fetch fills only the part inside the array
  and leaves the rest of the staging buffer at contents nothing names; the write-back writes only the part inside.
  For the frame nothing of the result's contents is needed, so the result window is forgotten: the body is handed
  its buffer at anything and hands it back at anything. The two overhanging inputs are stated on their part inside
  the array: the fetched block, padded out with whatever the buffer held.
-/
import proofs.«116691_j51299089383831_2_alg».proof.Proof.KernelBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result window (3) is forgotten. -/
def forgets : Fin 4 → Bool := fun w => w.val == 3

/-- An overhanging input block as its staging buffer holds it: the part inside the array, padded out. -/
def padded (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- Per core: the arrays as the region finds them; after the body the activation buffer at its block, the weight
    and bias buffers at their blocks padded out (with contents nothing reads), the result's at nothing named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => padded m c 1 t (Pipeline.Dat.unnamed (cfg := cfg0) 1 t)
    | ⟨2, _⟩ => padded m c 2 t (Pipeline.Dat.unnamed (cfg := cfg0) 2 t)
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = padded m c 1 t (Pipeline.Dat.unnamed (cfg := cfg0) 1 t) := by dsimp only [dats]
theorem after_2 (c : Dev nD) (t : Fin cfg0.N) :
    (dats m 0 c).after 2 t = padded m c 2 t (Pipeline.Dat.unnamed (cfg := cfg0) 2 t) := by dsimp only [dats]

/-- The activation buffer holds its block at every point (fetched at the first, kept since). -/
theorem before_0 (c : Dev nD) (t : Fin cfg0.N) (d) : (dats m 0 c).before 0 t d = iblk m c 0 t :=
  before0_0_of m (dats m 0 c) (A_eq m c 0) (after_0 m c) t d

/-- The weight and bias buffers are fetched at every point: the block's part inside the array, the rest as it was. -/
theorem before_1 (c : Dev nD) (t : Fin cfg0.N) (d) : (dats m 0 c).before 1 t d = padded m c 1 t d :=
  ((dats m 0 c).before_fetched 1 t (fetch0_1 t) d).trans (by unfold Dat.fetched Dat.blockOf padded iblk; rw [A_eq])
theorem before_2 (c : Dev nD) (t : Fin cfg0.N) (d) : (dats m 0 c).before 2 t d = padded m c 2 t d :=
  ((dats m 0 c).before_fetched 2 t (fetch0_2 t) d).trans (by unfold Dat.fetched Dat.blockOf padded iblk; rw [A_eq])

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ X, owns (c : Thread nD τ) (st0_3 t) fullShare X))

/-- The body at any point: the inputs' buffers hold their (padded) blocks, so the body's triple applies; the inputs
    come back as they were, which on the part inside the array is what the proof data name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (padded m c 1 t d1) (padded m c 2 t d2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (cfg0.win 1).cut (cfg0.grid.coords t) (padded m c 1 t (Pipeline.Dat.unnamed (cfg := cfg0) 1 t)) = iblk m c 1 t from
      (cfg0.win 1).cut_fill _ _ _]
    iexact H1
  isplitl [H2]
  · iexists d2
    rw [show (cfg0.win 2).cut (cfg0.grid.coords t) (padded m c 2 t (Pipeline.Dat.unnamed (cfg := cfg0) 2 t)) = iblk m c 2 t from
      (cfg0.win 2).cut_fill _ _ _]
    iexact H2
  iexists _; iexact H3

theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame of `Kernel`, at any `F`: the weight array is a staged input, never written back; the activation and
    bias arrays are staged only through host copies (the bf16 cast, the reshape), so they bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     (Eq.mp (congrFun (((dats m 0 c).toRForget forgets).ArrAt_in 1 rfl _) _) ((h c).1 1)).trans ((A_eq m c 1).trans (V_main_arg1 m c)),
     ((h c).2 main_arg2 (Pipeline.mem_restRefs_of main_arg2 (by decide) (by decide))).trans (V_main_arg2 m c)⟩)
    (run_main m ρ)

end Cert.Kernel.Hand

end
-- ==== Proof.KernelIdealBody.lean ====
/-
  The kernel body of `KernelIdeal` on any four whole staging buffers.

  One grid point computes a 32 × 512 tile of the result: the whole activation block (32 × 4096), one block of 512
  weight rows (512 × 4096) and the matching 512 bias entries are loaded whole, the tile
  `x · wᵀ + bias` is formed, and it is stored whole into the result's staging buffer (after a dead load of that
  buffer). So the three input buffers are left as found and the result's buffer ends holding `tile x w b`,
  the one store's payload over the three loaded values.
-/
import proofs.«116691_j51299089383831_2_alg».proof.Proof.Gen.KernelIdeal.Frame
import proofs.«116691_j51299089383831_2_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The four whole-buffer accesses -/

abbrev rectX : Rect S32x4096 := Rect.unit (s := S32x4096) ![0, 0] S32x4096.size inb_S32x4096_S32x4096_0_0
abbrev rectW : Rect S512x4096 := Rect.unit (s := S512x4096) ![0, 0] S512x4096.size inb_S512x4096_S512x4096_0_0
abbrev rectB : Rect S1x512 := Rect.unit (s := S1x512) ![0, 0] S1x512.size inb_S1x512_S1x512_0_0
abbrev rectO : Rect S32x512 := Rect.unit (s := S32x512) ![0, 0] S32x512.size inb_S32x512_S32x512_0_0

/-- The result tile one grid point leaves in the result's staging buffer, from what the three input buffers hold:
    the single whole store of `x · wᵀ + bias` (the skeleton's payload) read back as the buffer's contents. -/
def tile (x : Vec F S32x4096 .bf16) (w : Vec F S512x4096 .f32) (b : Vec F S1x512 .f32) : Vec F S32x512 .f32 :=
  View.canon [⟨rectO, k0_pay1 (View.ld x rectX) (View.ld w rectW) (View.ld b rectB)⟩]

/-- The one store covers the result's staging buffer. -/
theorem tile_cover (p : Vec F S32x512 .f32) (y : S32x512.Idx) :
    ∃ pc ∈ ([⟨rectO, p⟩] : List (View.Piece (Elt F) S32x512 .f32)), y ∈ pc.1.set :=
  View.cover_of_tiled [⟨rectO, p⟩] S32x512.size (by rfl) y

set_option maxHeartbeats 1000000 in
/-- The body's triple: on whole staging buffers holding `x`, `w`, `b` and anything, the body runs to the same
    three and the result's buffer at `tile x w b`. -/
theorem sound_kernel (c : Dev nD) (E : Set ℕ) (i : grid0.Coords)
    (arg1 : Memref sig .tc .vmem S32x4096 .bf16) (harg1 : arg1.IsWhole)
    (arg2 : Memref sig .tc .vmem S512x4096 .f32) (harg2 : arg2.IsWhole)
    (arg3 : Memref sig .tc .vmem S1x512 .f32) (harg3 : arg3.IsWhole)
    (arg4 : Memref sig .tc .vmem S32x512 .f32) (harg4 : arg4.IsWhole)
    (x : Vec F S32x4096 .bf16) (w : Vec F S512x4096 .f32) (b : Vec F S1x512 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (tile x w b)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

end Cert.KernelIdeal.Hand

end
-- ==== Proof.TileValue.lean ====
/-
  The result tile at the ideal values, entry by entry.

  With floats read as extended reals the casts to bf16 are the identity and the matrix unit's product into a zero
  accumulator is the plain sum over the contracted axis, so entry `(p, q)` of the tile computed from an activation
  block `x`, a block `w` of 512 weight rows and the matching bias row `b` is
  `∑ k, x (p, k) · w (q, k) + b (0, q)`: it depends on row `q` of `w` and entry `q` of `b` only. Hence, if the
  blocks agree with whole arrays `X`, `W`, `B` on the first `e` weight rows and bias entries of block `n`
  (rows `512 n + q`, `q < e`), the tile's first `e` columns are the columns `512 n + q` of `X · Wᵀ + B` —
  whatever the blocks hold past `e`.
-/
import proofs.«116691_j51299089383831_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- Entry `(p, n)` of `X · Wᵀ + B`: row `p` of `X` against row `n` of `W`, plus entry `n` of the bias row. -/
def affineAt (X : FVec Ideal S32x4096 .bf16) (W : FVec Ideal S11008x4096 .f32) (B : FVec Ideal S1x11008 .f32)
    (p : Fin 32) (n : Fin 11008) : EReal :=
  (∑ k : Fin 4096, X (ix2 p k) * W (ix2 n k)) + B (ix2 (0 : Fin 1) n)

/-- The matrix unit's operand indices at output entry `j` and contraction position `q`: the activation's row is the
    entry's row, the weight block's row is the entry's column, and both columns are the contraction position. -/
theorem lhs_row (j : S32x512.Idx) (q : dot_S32x4096_S512x4096_S32x512_1_1_0_0_n_n.contr.Idx) :
    (dot_S32x4096_S512x4096_S32x512_1_1_0_0_n_n.lhsIdx j q 0).val = (j 0).val := by
  unfold DotDims.lhsIdx
  rw [dif_neg (show ¬(0 : Fin S32x4096.rank) ∈ dot_S32x4096_S512x4096_S32x512_1_1_0_0_n_n.lhsBatch by decide),
    dif_pos (show (0 : Fin S32x4096.rank) ∈ dot_S32x4096_S512x4096_S32x512_1_1_0_0_n_n.lhsNonContracting by decide)]
  rfl
theorem lhs_col (j : S32x512.Idx) (q : dot_S32x4096_S512x4096_S32x512_1_1_0_0_n_n.contr.Idx) :
    (dot_S32x4096_S512x4096_S32x512_1_1_0_0_n_n.lhsIdx j q 1).val = (q ⟨0, by decide⟩).val :=
  dot_S32x4096_S512x4096_S32x512_1_1_0_0_n_n.lhsIdx_val_of_single rfl j q
theorem rhs_row (j : S32x512.Idx) (q : dot_S32x4096_S512x4096_S32x512_1_1_0_0_n_n.contr.Idx) :
    (dot_S32x4096_S512x4096_S32x512_1_1_0_0_n_n.rhsIdx j q 0).val = (j 1).val := by
  unfold DotDims.rhsIdx
  rw [dif_neg (show ¬(0 : Fin S512x4096.rank) ∈ dot_S32x4096_S512x4096_S32x512_1_1_0_0_n_n.rhsBatch by decide),
    dif_pos (show (0 : Fin S512x4096.rank) ∈ dot_S32x4096_S512x4096_S32x512_1_1_0_0_n_n.rhsNonContracting by decide)]
  rfl
theorem rhs_col (j : S32x512.Idx) (q : dot_S32x4096_S512x4096_S32x512_1_1_0_0_n_n.contr.Idx) :
    (dot_S32x4096_S512x4096_S32x512_1_1_0_0_n_n.rhsIdx j q 1).val = (q ⟨0, by decide⟩).val :=
  dot_S32x4096_S512x4096_S32x512_1_1_0_0_n_n.rhsIdx_val_of_single rfl j q

/-- The product into the zero accumulator, at entry `(p, q)`: the sum over the 4096 contraction positions. -/
theorem matmul_entry (x : FVec Ideal S32x4096 .bf16) (w : FVec Ideal S512x4096 .bf16) (p : Fin 32) (q : Fin 512) :
    matmul dot_S32x4096_S512x4096_S32x512_1_1_0_0_n_n none x w (constant S32x512 .f32 0x00000000#32) (ix2 p q)
      = ∑ k : Fin 4096, x (ix2 p k) * w (ix2 q k) := by
  simp only [matmul]
  rw [Ideal.matmul_constant_zero_apply,
    ← Equiv.sum_comp (ValueIdx.contrEquiv1 dot_S32x4096_S512x4096_S32x512_1_1_0_0_n_n 4096 rfl rfl).symm]
  refine Finset.sum_congr rfl fun k _ => ?_
  have hk := ValueIdx.contrEquiv1_symm_val dot_S32x4096_S512x4096_S32x512_1_1_0_0_n_n 4096 rfl rfl k
  have el : dot_S32x4096_S512x4096_S32x512_1_1_0_0_n_n.lhsIdx (ix2 p q)
      ((ValueIdx.contrEquiv1 dot_S32x4096_S512x4096_S32x512_1_1_0_0_n_n 4096 rfl rfl).symm k) = ix2 p k :=
    funext fun a => Fin.ext (by
      match a with
      | ⟨0, _⟩ => exact lhs_row _ _
      | ⟨1, _⟩ => exact (lhs_col _ _).trans hk)
  have er : dot_S32x4096_S512x4096_S32x512_1_1_0_0_n_n.rhsIdx (ix2 p q)
      ((ValueIdx.contrEquiv1 dot_S32x4096_S512x4096_S32x512_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-- The bias row broadcast down the 32 rows, at entry `(p, q)`: entry `q` of the row. -/
theorem bias_entry (b : FVec Ideal S1x512 .f32) (p : Fin 32) (q : Fin 512) :
    broadcastTo S32x512 b broadcasts_S1x512_S32x512 (ix2 p q) = b (ix2 (0 : Fin 1) q) :=
  broadcastTo_apply b broadcasts_S1x512_S32x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- The body's payload at entry `(p, q)`. -/
theorem pay_entry (x : FVec Ideal S32x4096 .bf16) (w : FVec Ideal S512x4096 .f32) (b : FVec Ideal S1x512 .f32)
    (p : Fin 32) (q : Fin 512) :
    k0_pay1 (F := Ideal) x w b (ix2 p q) = (∑ k : Fin 4096, x (ix2 p k) * w (ix2 q k)) + b (ix2 (0 : Fin 1) q) := by
  unfold k0_pay1
  rw [shapeCast_self, shapeCast_self, ValueIdx.addf_apply, matmul_entry, bias_entry]
  rfl

/-- Blocks that agree with the whole arrays on block `n`'s first `e` weight rows and bias entries give, in the tile's
    first `e` columns, the columns `512 n + q` of `X · Wᵀ + B`. -/
theorem pay_block (x : FVec Ideal S32x4096 .bf16) (w : FVec Ideal S512x4096 .f32) (b : FVec Ideal S1x512 .f32)
    (X : FVec Ideal S32x4096 .bf16) (W : FVec Ideal S11008x4096 .f32) (B : FVec Ideal S1x11008 .f32)
    (n e : Nat) (he : n * 512 + e ≤ 11008)
    (hx : ∀ (p : Fin 32) (k : Fin 4096), x (ix2 p k) = X (ix2 p k))
    (hw : ∀ (q : Fin 512) (k : Fin 4096) (hq : q.val < e),
      w (ix2 q k) = W (ix2 (⟨n * 512 + q.val, by omega⟩ : Fin 11008) k))
    (hb : ∀ (q : Fin 512) (hq : q.val < e),
      b (ix2 (0 : Fin 1) q) = B (ix2 (0 : Fin 1) (⟨n * 512 + q.val, by omega⟩ : Fin 11008)))
    (p : Fin 32) (q : Fin 512) (hq : q.val < e) :
    k0_pay1 (F := Ideal) x w b (ix2 p q) = affineAt X W B p ⟨n * 512 + q.val, by omega⟩ := by
  rw [pay_entry]
  unfold affineAt
  rw [hb q hq]
  exact congrArg (· + _) (Finset.sum_congr rfl fun k _ => by rw [hx, hw q k hq])

end Cert.KernelIdeal.Hand

end
-- ==== Proof.KernelIdealRun.lean ====
/-
  The idealized kernel's run, with the result array named.

  The grid has 22 points; point `t` stages the whole activation block, weight rows `512 t ‥ 512 t + 511` and the
  matching bias entries, and writes back result columns `512 t ‥ 512 t + 511`. 11008 = 21 · 512 + 256, so at the last
  point only the first 256 weight rows, bias entries and result columns lie inside their arrays: the fetch fills that
  part of a staging buffer and leaves the rest at contents nothing names, and the write-back writes that part only.
  Column `q` of a tile depends on weight row `q` and bias entry `q` alone, so the part of the tile inside the array
  is the same whatever the staging buffers hold past the arrays' ends: it is the block of columns `512 t + q` of
  `X · Wᵀ + B` for the arrays `X`, `W`, `B` the region finds (`cut_tile`). That one fact is what the body must leave
  (each overhanging window is stated on its part inside the array), and what each write-back writes; the blocks'
  parts inside the array tile the 11008 columns, so the result array ends holding `X · Wᵀ + B`.
-/
import proofs.«116691_j51299089383831_2_alg».proof.Proof.KernelIdealBody
import proofs.«116691_j51299089383831_2_alg».proof.Proof.TileValue
import Idealize.ShloMosaic.Lib.Pipeline.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Where the blocks sit -/

/-- The index maps and the cut extents, decided over the 22 points: the activation block is the whole array; point `t`
    takes weight-row block `t`, bias block `t` and result-column block `t`; the three overhanging windows are cut alike,
    to the `min 512 (11008 − 512 t)` rows or columns left. -/
theorem layout : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_1.xsize (grid0.coords t) (0 : Fin 2) = min 512 (11008 - t.val * 512) ∧ win0_1.xsize (grid0.coords t) (1 : Fin 2) = 4096
    ∧ win0_2.xsize (grid0.coords t) (0 : Fin 2) = 1 ∧ win0_2.xsize (grid0.coords t) (1 : Fin 2) = min 512 (11008 - t.val * 512)
    ∧ win0_3.xsize (grid0.coords t) (0 : Fin 2) = 32 ∧ win0_3.xsize (grid0.coords t) (1 : Fin 2) = min 512 (11008 - t.val * 512)
    ∧ t.val < 22 :=
  (by decide +kernel : ∀ t : Fin grid0.N, _)

/-! ## The proof data -/

/-- An overhanging input block as its staging buffer holds it: the part inside the array, padded out with `d`. -/
def padded (c : Dev nD) (w : Fin cfg0.W) (t : Fin cfg0.N) (d : (cfg0.win w).block.Idx → Elt Ideal (cfg0.win w).elt) :
    (cfg0.win w).block.Idx → Elt Ideal (cfg0.win w).elt :=
  (cfg0.win w).fill (cfg0.grid.coords t) d (iblk m c w t)

/-- `X · Wᵀ + B` of the arrays as the region finds them: `X` the activations (cast to bf16 by the host, the identity
    here), `W` the weights, `B` the bias as a row. -/
def result (c : Dev nD) : FVec Ideal S32x11008 .f32 := fun i =>
  affineAt (V m c main_v1) (V m c main_arg1) (V m c main_v0) ⟨(i 0).val, (i 0).isLt⟩ ⟨(i 1).val, (i 1).isLt⟩

/-- Per core: the arrays as the region finds them; after the body the activation buffer at its block, the weight and bias
    buffers at their blocks padded out (with contents nothing reads), and the result's at the tile of those. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => padded m c 1 t (Pipeline.Dat.unnamed (cfg := cfg0) 1 t)
    | ⟨2, _⟩ => padded m c 2 t (Pipeline.Dat.unnamed (cfg := cfg0) 2 t)
    | ⟨3, _⟩ => tile (iblk m c 0 t) (padded m c 1 t (Pipeline.Dat.unnamed (cfg := cfg0) 1 t))
        (padded m c 2 t (Pipeline.Dat.unnamed (cfg := cfg0) 2 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = padded m c 1 t (Pipeline.Dat.unnamed (cfg := cfg0) 1 t) := by dsimp only [dats]
theorem after_2 (c : Dev nD) (t : Fin cfg0.N) :
    (dats m 0 c).after 2 t = padded m c 2 t (Pipeline.Dat.unnamed (cfg := cfg0) 2 t) := by dsimp only [dats]
theorem after_3 (c : Dev nD) (t : Fin cfg0.N) :
    (dats m 0 c).after 3 t = tile (iblk m c 0 t) (padded m c 1 t (Pipeline.Dat.unnamed (cfg := cfg0) 1 t))
        (padded m c 2 t (Pipeline.Dat.unnamed (cfg := cfg0) 2 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = padded m c 1 t d :=
  ((dats m 0 c).before_fetched 1 t (fetch0_1 t) d).trans (by unfold Dat.fetched Dat.blockOf padded iblk; rw [A_eq])
theorem before_2 (c : Dev nD) (t : Fin cfg0.N) (d) : (dats m 0 c).before 2 t d = padded m c 2 t d :=
  ((dats m 0 c).before_fetched 2 t (fetch0_2 t) d).trans (by unfold Dat.fetched Dat.blockOf padded iblk; rw [A_eq])

/-! ## The blocks read at an entry -/

/-- The activation block is the array. -/
theorem read_x (c : Dev nD) (t : Fin cfg0.N) (p : Fin 32) (k : Fin 4096) :
    iblk m c 0 t (ix2 p k) = V m c main_v1 (ix2 p k) := by
  obtain ⟨i0a, i0b, -⟩ := layout t
  unfold iblk
  show V m c main_v1 (((cfg0.win 0).blk t).view.emb (ix2 p k)) = V m c main_v1 (ix2 p k)
  refine congrArg (V m c main_v1) (funext fun a => Fin.ext ?_)
  match a with
  | ⟨0, _⟩ => show win0_0.index t (0 : Fin 2) * 32 + 1 * p.val = p.val; rw [i0a]; omega
  | ⟨1, _⟩ => show win0_0.index t (1 : Fin 2) * 4096 + 1 * k.val = k.val; rw [i0b]; omega

/-- Row `q` of the padded weight block, for `q` inside the array, is weight row `512 t + q`. -/
theorem read_w (c : Dev nD) (t : Fin cfg0.N) (d) (q : Fin 512) (k : Fin 4096)
    (hq : q.val < min 512 (11008 - t.val * 512)) (hn : t.val * 512 + q.val < 11008) :
    padded m c 1 t d (ix2 q k) = V m c main_arg1 (ix2 (⟨t.val * 512 + q.val, hn⟩ : Fin 11008) k) := by
  obtain ⟨-, -, i1a, i1b, -, -, -, -, x1a, x1b, -⟩ := layout t
  have hmv : (cfg0.win 1).moved (cfg0.grid.coords t) (ix2 q k) = true :=
    ((cfg0.win 1).moved_iff _ _).mpr fun a => by
      match a with
      | ⟨0, _⟩ => show q.val < win0_1.xsize (grid0.coords t) (0 : Fin 2); rw [x1a]; exact hq
      | ⟨1, _⟩ => show k.val < win0_1.xsize (grid0.coords t) (1 : Fin 2); rw [x1b]; exact k.isLt
  unfold padded Window.fill
  rw [dif_pos hmv]
  unfold iblk
  show V m c main_arg1 (((cfg0.win 1).blk t).view.emb _) = _
  refine congrArg (V m c main_arg1) (funext fun a => Fin.ext ?_)
  match a with
  | ⟨0, _⟩ => show win0_1.index t (0 : Fin 2) * 512 + 1 * q.val = t.val * 512 + q.val; rw [i1a]; omega
  | ⟨1, _⟩ => show win0_1.index t (1 : Fin 2) * 4096 + 1 * k.val = k.val; rw [i1b]; omega

/-- Entry `q` of the padded bias block, for `q` inside the array, is bias entry `512 t + q`. -/
theorem read_b (c : Dev nD) (t : Fin cfg0.N) (d) (q : Fin 512)
    (hq : q.val < min 512 (11008 - t.val * 512)) (hn : t.val * 512 + q.val < 11008) :
    padded m c 2 t d (ix2 (0 : Fin 1) q) = V m c main_v0 (ix2 (0 : Fin 1) (⟨t.val * 512 + q.val, hn⟩ : Fin 11008)) := by
  obtain ⟨-, -, -, -, i2a, i2b, -, -, -, -, x2a, x2b, -⟩ := layout t
  have hmv : (cfg0.win 2).moved (cfg0.grid.coords t) (ix2 (0 : Fin 1) q) = true :=
    ((cfg0.win 2).moved_iff _ _).mpr fun a => by
      match a with
      | ⟨0, _⟩ => show 0 < win0_2.xsize (grid0.coords t) (0 : Fin 2); rw [x2a]; exact Nat.one_pos
      | ⟨1, _⟩ => show q.val < win0_2.xsize (grid0.coords t) (1 : Fin 2); rw [x2b]; exact hq
  unfold padded Window.fill
  rw [dif_pos hmv]
  unfold iblk
  show V m c main_v0 (((cfg0.win 2).blk t).view.emb _) = _
  refine congrArg (V m c main_v0) (funext fun a => Fin.ext ?_)
  match a with
  | ⟨0, _⟩ => show win0_2.index t (0 : Fin 2) * 1 + 1 * 0 = 0; rw [i2a]
  | ⟨1, _⟩ => show win0_2.index t (1 : Fin 2) * 512 + 1 * q.val = t.val * 512 + q.val; rw [i2b]; omega

/-! ## The tile's part inside the array -/

theorem hz : (![0, 0] : Fin 2 → Nat) = fun _ => 0 := funext fun a => by fin_cases a <;> rfl

/-- The one whole store leaves its payload. -/
theorem tile_eq (x : Vec Ideal S32x4096 .bf16) (w : Vec Ideal S512x4096 .f32) (b : Vec Ideal S1x512 .f32) :
    tile x w b = k0_pay1 x w b := by
  unfold tile
  rw [View.canon_unit_zero hz]
  simp only [View.ld_unit_zero (S := S32x4096) hz, View.ld_unit_zero (S := S512x4096) hz, View.ld_unit_zero (S := S1x512) hz]

/-- Whatever the weight and bias buffers hold past the arrays' ends, the tile's part inside the array at point `t` is
    block `t` of `X · Wᵀ + B`. -/
theorem cut_tile (c : Dev nD) (t : Fin cfg0.N) (d1) (d2) :
    (cfg0.win 3).cut (cfg0.grid.coords t) (tile (iblk m c 0 t) (padded m c 1 t d1) (padded m c 2 t d2))
      = ((cfg0.win 3).blk t).view.read (Elt Ideal) (result m c) := by
  obtain ⟨-, -, -, -, -, -, i3a, i3b, -, -, -, -, x3a, x3b, ht⟩ := layout t
  funext j
  have hp : (j 0).val < 32 := lt_of_lt_of_eq (j 0).isLt x3a
  have hq' : (j 1).val < min 512 (11008 - t.val * 512) := lt_of_lt_of_eq (j 1).isLt x3b
  have hq : (j 1).val < 512 := by omega
  have hn : t.val * 512 + (j 1).val < 11008 := by omega
  have hxinj : (cfg0.win 3).xinj (cfg0.grid.coords t) j = ix2 (⟨(j 0).val, hp⟩ : Fin 32) (⟨(j 1).val, hq⟩ : Fin 512) :=
    funext fun a => Fin.ext (by match a with | ⟨0, _⟩ => rfl | ⟨1, _⟩ => rfl)
  show tile (iblk m c 0 t) (padded m c 1 t d1) (padded m c 2 t d2) ((cfg0.win 3).xinj (cfg0.grid.coords t) j)
    = result m c (((cfg0.win 3).blk t).view.emb j)
  rw [hxinj, tile_eq]
  refine (pay_block _ _ _ (V m c main_v1) (V m c main_arg1) (V m c main_v0) t.val (min 512 (11008 - t.val * 512)) (by omega)
    (fun p k => read_x m c t p k) (fun q k hq => read_w m c t d1 q k hq (by omega))
    (fun q hq => read_b m c t d2 q hq (by omega)) ⟨(j 0).val, hp⟩ ⟨(j 1).val, hq⟩ hq').trans ?_
  unfold result
  have e0 : ((((cfg0.win 3).blk t).view.emb j) 0).val = (j 0).val := by
    show win0_3.index t (0 : Fin 2) * 32 + 1 * (j 0).val = (j 0).val; rw [i3a]; omega
  have e1 : ((((cfg0.win 3).blk t).view.emb j) 1).val = t.val * 512 + (j 1).val := by
    show win0_3.index t (1 : Fin 2) * 512 + 1 * (j 1).val = t.val * 512 + (j 1).val; rw [i3b]; omega
  exact congrArg₂ (affineAt (V m c main_v1) (V m c main_arg1) (V m c main_v0)) (Fin.ext e0.symm) (Fin.ext e1.symm)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t)))))

/-- The body at any point: the inputs' buffers hold their (padded) blocks, so the body's triple applies; the inputs come
    back as they were and the result's buffer holds their tile, which on the parts inside the arrays are what the proof
    data name (`cut_tile` for the tile: its part inside the array does not see the padding). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel (F := Ideal) c Set.univ _ _ _ _ _ _ _ _ _ (iblk m c 0 t) (padded m c 1 t d1) (padded m c 2 t d2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (cfg0.win 1).cut (cfg0.grid.coords t) (padded m c 1 t (Pipeline.Dat.unnamed (cfg := cfg0) 1 t)) = iblk m c 1 t from
      (cfg0.win 1).cut_fill _ _ _]
    iexact H1
  isplitl [H2]
  · iexists d2
    rw [show (cfg0.win 2).cut (cfg0.grid.coords t) (padded m c 2 t (Pipeline.Dat.unnamed (cfg := cfg0) 2 t)) = iblk m c 2 t from
      (cfg0.win 2).cut_fill _ _ _]
    iexact H2
  iexists tile (iblk m c 0 t) (padded m c 1 t d1) (padded m c 2 t d2)
  rw [(cfg0.win 3).fill_congr_cut (cfg0.grid.coords t) ((cut_tile m c t d1 d2).trans (cut_tile m c t _ _).symm)]
  iexact H3

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The result array -/

/-- What point `t` writes back is block `t` of `X · Wᵀ + B`. -/
theorem flushed_eq (c : Dev nD) (t : Fin cfg0.N) :
    (dats m 0 c).flushed 3 t = ((cfg0.win 3).blk t).view.read (Elt Ideal) (result m c) := by
  show (cfg0.win 3).cut (cfg0.grid.coords t) ((dats m 0 c).after 3 t) = _
  rw [after_3]
  exact cut_tile m c t _ _

/-- An entry is in point `t`'s block iff its row is any of the 32 and its column is one of the block's columns inside the array. -/
theorem mem_blk (t : Fin cfg0.N) (i : S32x11008.Idx) :
    i ∈ ((cfg0.win 3).blk t).view.set ↔ ∀ a : Fin 2, win0_3.index t a * S32x512.size a ≤ (i a).val
      ∧ (i a).val < win0_3.index t a * S32x512.size a + win0_3.xsize (grid0.coords t) a := by
  show i ∈ ((View.whole main_v2).slice (win0_3.rect t)).set ↔ _
  rw [View.set_slice_whole, Rect.mem_set_unit]
  exact Iff.rfl

/-- The 22 blocks' parts inside the array tile the 11008 columns: column `n` is in block `n / 512`. -/
theorem cover (i : S32x11008.Idx) : ∃ t : Fin cfg0.N, (cfg0.win 3).flush t = true ∧ i ∈ ((cfg0.win 3).blk t).view.set := by
  have h0 : (i 0).val < 32 := (i 0).isLt
  have h1 : (i 1).val < 11008 := (i 1).isLt
  have hN : cfg0.N = 22 := N_0
  refine ⟨⟨(i 1).val / 512, by rw [hN]; omega⟩, flush0_3 _, ?_⟩
  rw [mem_blk]
  obtain ⟨-, -, -, -, -, -, i3a, i3b, -, -, -, -, x3a, x3b, -⟩ := layout ⟨(i 1).val / 512, by rw [hN]; omega⟩
  intro a
  match a with
  | ⟨0, _⟩ =>
    show win0_3.index _ (0 : Fin 2) * 32 ≤ (i 0).val ∧ (i 0).val < win0_3.index _ (0 : Fin 2) * 32 + win0_3.xsize _ (0 : Fin 2)
    rw [i3a, x3a]; omega
  | ⟨1, _⟩ =>
    show win0_3.index _ (1 : Fin 2) * 512 ≤ (i 1).val ∧ (i 1).val < win0_3.index _ (1 : Fin 2) * 512 + win0_3.xsize _ (1 : Fin 2)
    rw [i3b, x3b]
    show (i 1).val / 512 * 512 ≤ (i 1).val ∧ (i 1).val < (i 1).val / 512 * 512 + min 512 (11008 - (i 1).val / 512 * 512)
    omega

/-- The result array after the run is `X · Wᵀ + B`. -/
theorem final (c : Dev nD) : (dats m 0 c).arrAt 3 cfg0.N = result m c :=
  (dats m 0 c).arrAt_eq_of_cover 3 (result m c) (fun t _ => flushed_eq m c t) cover

/-- The frame of `KernelIdeal`. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run with the result named: the result array ends at `X · Wᵀ + B`, the arguments unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final m c),
     ((h c).2 main_arg0 (Pipeline.mem_restRefs_of main_arg0 (by decide) (by decide))).trans (V_main_arg0 m c),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c)⟩)
    (run_main m ρ)

end Cert.KernelIdeal.Hand

end
-- ==== Proof.Bridge.lean ====
/-
  The idealized kernel's result is the idealized reference's.

  The region finds the activations cast to bf16 by the host (the identity on extended reals) and the bias reshaped
  to a row, so `X · Wᵀ + B` of those arrays is, entry `(p, n)`, `∑ k, x (p, k) · W (n, k) + bias n` of the launch
  arrays. The reference transposes `W`, contracts `x`'s columns against the transpose's rows, and adds the bias
  broadcast down the rows: entry `(p, n)` is `∑ k, x (p, k) · Wᵀ (k, n) + bias n` — the same sum, term by term.
-/
import proofs.«116691_j51299089383831_2_alg».proof.Proof.KernelIdealRun
import proofs.«116691_j51299089383831_2_alg».proof.Proof.Gen.ReferenceIdeal.Read
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The activations as the region finds them: the host's bf16 copy of the argument. -/
theorem V_act (c : Dev nD) :
    @Eq (FVec Ideal S32x4096 .bf16) (V m c main_v1)
      (truncf (F := Ideal) (s := S32x4096) (φ := .f32) .bf16 (m ((c : Thread nD τ).loc main_arg0)) bitsLt_bf16_f32) := by
  dsimp only [Gen.V, Gen.hostOps0]; after_results

/-- The bias as the region finds it: the argument reshaped to one row. -/
theorem V_bias (c : Dev nD) :
    @Eq (FVec Ideal S1x11008 .f32) (V m c main_v0)
      (shapeCast (s := S11008) (α := Ideal .f32) S1x11008 (m ((c : Thread nD τ).loc main_arg2)) shapeCasts_S11008_S1x11008) := by
  dsimp only [Gen.V, Gen.hostOps0]; after_results; rfl

open Cert.ReferenceIdeal.Read in
/-- Entry by entry, `x · Wᵀ + bias` as the kernel forms it is the reference's last stage. -/
theorem affine_eq_reference (x0 : FVec Ideal S32x4096 .f32) (x1 : FVec Ideal S11008x4096 .f32) (x2 : FVec Ideal S11008 .f32)
    (i : S32x11008.Idx) :
    affineAt (truncf .bf16 x0 bitsLt_bf16_f32) x1 (shapeCast S1x11008 x2 shapeCasts_S11008_S1x11008)
        ⟨(i 0).val, (i 0).isLt⟩ ⟨(i 1).val, (i 1).isLt⟩
      = val_main_v4 (F := Ideal) x0 x1 x2 i := by
  have el : ∀ k : Fin 4096, lidx_main_v1 i k = ix2 (⟨(i 0).val, (i 0).isLt⟩ : Fin 32) k := fun k =>
    funext fun a => Fin.ext (by match a with | ⟨0, _⟩ => rfl | ⟨1, _⟩ => rfl)
  have er : ∀ k : Fin 4096, idx_main_v0 (ridx_main_v1 i k) = ix2 (⟨(i 1).val, (i 1).isLt⟩ : Fin 11008) k := fun k =>
    funext fun a => Fin.ext (by match a with | ⟨0, _⟩ => rfl | ⟨1, _⟩ => rfl)
  have eb : idx_main_v2 (idx_main_v3 i) = ix1 (⟨(i 1).val, (i 1).isLt⟩ : Fin 11008) :=
    funext fun a => Fin.ext (by match a with | ⟨0, _⟩ => rfl)
  rw [val_main_v4_apply, val_main_v1_apply, val_main_v3_apply, val_main_v2_apply, eb]
  unfold affineAt
  rw [shapeCast_a_1a_apply]
  refine congrArg₂ (fun a b : EReal => a + b) (Finset.sum_congr rfl fun k _ => ?_) rfl
  rw [val_main_v0_apply, el, er]
  rfl

/-- The kernel's result array is the reference's last stage of the launch arrays. -/
theorem result_eq_reference (c : Dev nD) :
    result m c = Cert.ReferenceIdeal.Read.val_main_v4 (F := Ideal) (m ((c : Thread nD τ).loc main_arg0))
      (m ((c : Thread nD τ).loc main_arg1)) (m ((c : Thread nD τ).loc main_arg2)) := by
  funext i
  unfold result
  rw [V_act, V_bias, V_main_arg1]
  exact affine_eq_reference _ _ _ i

end Cert.KernelIdeal.Hand

end
-- ==== Proof.lean ====
/-
  `Cert.Claim`: the three frames, the (empty) idealization ledger, and the equality of the idealized kernel's and the
  idealized reference's results.

  The kernel computes `x · Wᵀ + bias` 512 result columns at a time over 22 grid points, the last block overhanging the
  arrays by 256; the reference computes it whole. At the ideal values the bf16 casts are the identity and a matrix
  product is the plain sum over the contracted axis, so a tile's column depends only on its own weight row and bias
  entry: what the overhanging staging buffers hold past the arrays' ends never reaches a column that is written back.
  The word-level kernel's frame says nothing of the result (its window is forgotten); the idealized kernel's run names
  the result array as `X · Wᵀ + B`, which is the reference's last stage entry by entry.
-/
import proofs.«116691_j51299089383831_2_alg».proof.Defs
import proofs.«116691_j51299089383831_2_alg».proof.Proof.Gen.Kernel
import proofs.«116691_j51299089383831_2_alg».proof.Proof.Gen.Kernel.Skeleton
import proofs.«116691_j51299089383831_2_alg».proof.Proof.Gen.Kernel.Launch
import proofs.«116691_j51299089383831_2_alg».proof.Proof.Gen.Kernel.Points
import proofs.«116691_j51299089383831_2_alg».proof.Proof.Gen.Kernel.Frame
import proofs.«116691_j51299089383831_2_alg».proof.Proof.Gen.KernelIdeal
import proofs.«116691_j51299089383831_2_alg».proof.Proof.Gen.KernelIdeal.Skeleton
import proofs.«116691_j51299089383831_2_alg».proof.Proof.Gen.KernelIdeal.Launch
import proofs.«116691_j51299089383831_2_alg».proof.Proof.Gen.KernelIdeal.Points
import proofs.«116691_j51299089383831_2_alg».proof.Proof.Gen.KernelIdeal.Frame
import proofs.«116691_j51299089383831_2_alg».proof.Proof.Gen.ReferenceIdeal
import proofs.«116691_j51299089383831_2_alg».proof.Proof.Gen.ReferenceIdeal.Run
import proofs.«116691_j51299089383831_2_alg».proof.Proof.Gen.ReferenceIdeal.Read
import proofs.«116691_j51299089383831_2_alg».proof.Proof.Gen.Pre_finite_inputs
import proofs.«116691_j51299089383831_2_alg».proof.Proof.KernelFrame
import proofs.«116691_j51299089383831_2_alg».proof.Proof.Bridge
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the result at `x · Wᵀ + bias`. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v4_eq]
  exact (Cert.KernelIdeal.Hand.result_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
